-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S50000x128 : Shape := ⟨2, ![50000, 128]⟩
abbrev S64x128 : Shape := ⟨2, ![64, 128]⟩
abbrev S128x128 : Shape := ⟨2, ![128, 128]⟩
abbrev S128 : Shape := ⟨1, ![128]⟩
abbrev S5000x128 : Shape := ⟨2, ![5000, 128]⟩
abbrev S1x128 : Shape := ⟨2, ![1, 128]⟩

abbrev nBuf : Space → Nat
  | .hbm => 39
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1250000, .i32⟩
  | .hbm, ⟨7, _⟩ => ⟨S1250000, .i32⟩
  | .hbm, ⟨8, _⟩ => ⟨S1x1250000, .i32⟩
  | .hbm, ⟨9, _⟩ => ⟨S1250000, .i32⟩
  | .hbm, ⟨10, _⟩ => ⟨S_, .i32⟩
  | .hbm, ⟨11, _⟩ => ⟨S1250000, .i32⟩
  | .hbm, ⟨12, _⟩ => ⟨S1250000, .i1⟩
  | .hbm, ⟨13, _⟩ => ⟨S_, .i32⟩
  | .hbm, ⟨14, _⟩ => ⟨S1250000, .i32⟩
  | .hbm, ⟨15, _⟩ => ⟨S1250000, .i32⟩
  | .hbm, ⟨16, _⟩ => ⟨S1250000, .i32⟩
  | .hbm, ⟨17, _⟩ => ⟨S1250000x1, .i32⟩
  | .hbm, ⟨18, _⟩ => ⟨S1250000x64, .f32⟩
  | .hbm, ⟨19, _⟩ => ⟨S_, .f32⟩
  | .hbm, ⟨20, _⟩ => ⟨S100000x64, .f32⟩
  | .hbm, ⟨21, _⟩ => ⟨S1250000x1, .i32⟩
  | .hbm, ⟨22, _⟩ => ⟨S100000x64, .f32⟩
  | .hbm, ⟨23, _⟩ => ⟨S50000x128, .f32⟩
  | .hbm, ⟨24, _⟩ => ⟨S50000x128, .f32⟩
  | .hbm, ⟨25, _⟩ => ⟨S_, .f32⟩
  | .hbm, ⟨26, _⟩ => ⟨S64x64, .f32⟩
  | .hbm, ⟨27, _⟩ => ⟨S64x128, .f32⟩
  | .hbm, ⟨28, _⟩ => ⟨S64x128, .f32⟩
  | .hbm, ⟨29, _⟩ => ⟨S128x128, .f32⟩
  | .hbm, ⟨30, _⟩ => ⟨S64x128, .f32⟩
  | .hbm, ⟨31, _⟩ => ⟨S64x128, .f32⟩
  | .hbm, ⟨32, _⟩ => ⟨S128x128, .f32⟩
  | .hbm, ⟨33, _⟩ => ⟨S128, .f32⟩
  | .hbm, ⟨34, _⟩ => ⟨S128, .f32⟩
  | .hbm, ⟨35, _⟩ => ⟨S128x128, .bf16⟩
  | .hbm, ⟨36, _⟩ => ⟨S128x128, .bf16⟩
  | .hbm, ⟨37, _⟩ => ⟨S50000x128, .f32⟩
  | .hbm, ⟨38, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  shapeCasts_S100000x64_S50000x128 : S100000x64.ShapeCasts S50000x128
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  shapeCasts_S50000x128_S100000x64 : S50000x128.ShapeCasts S100000x64
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x64 : Shape := ⟨2, ![1, 64]⟩

abbrev nBuf : Space → Nat
  | .hbm => 35
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1250000, .i32⟩
  | .hbm, ⟨7, _⟩ => ⟨S1250000, .i32⟩
  | .hbm, ⟨8, _⟩ => ⟨S1x1250000, .i32⟩
  | .hbm, ⟨9, _⟩ => ⟨S1250000, .i32⟩
  | .hbm, ⟨10, _⟩ => ⟨S_, .i32⟩
  | .hbm, ⟨11, _⟩ => ⟨S1250000, .i32⟩
  | .hbm, ⟨12, _⟩ => ⟨S1250000, .i1⟩
  | .hbm, ⟨13, _⟩ => ⟨S_, .i32⟩
  | .hbm, ⟨14, _⟩ => ⟨S1250000, .i32⟩
  | .hbm, ⟨15, _⟩ => ⟨S1250000, .i32⟩
  | .hbm, ⟨16, _⟩ => ⟨S1250000, .i32⟩
  | .hbm, ⟨17, _⟩ => ⟨S1250000x1, .i32⟩
  | .hbm, ⟨18, _⟩ => ⟨S1250000x64, .f32⟩
  | .hbm, ⟨19, _⟩ => ⟨S_, .f32⟩
  | .hbm, ⟨20, _⟩ => ⟨S100000x64, .f32⟩
  | .hbm, ⟨21, _⟩ => ⟨S1250000x1, .i32⟩
  | .hbm, ⟨22, _⟩ => ⟨S100000x64, .f32⟩
  | .hbm, ⟨23, _⟩ => ⟨S100000x64, .f32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The mathematics of the certificate, with no program in it.

  A graph-isomorphism layer sends each node's row `h = x + agg` (its own features plus the sum of its in-neighbours'
  features) through a two-layer perceptron: `relu(h · W₁ + b₁) · W₂ + b₂`. `mlpAt` is one entry of that result, for an
  array of `R` rows of `n` columns, over the extended reals.

  The kernel evaluates the same perceptron on a PACKED copy of the data: two consecutive rows of 64 columns laid side by
  side as one row of 128 lanes, against block-diagonal 128 × 128 weights `[[W, 0], [0, W]]` and the biases repeated twice.
  `lane q k` is lane `64·q + k` of a packed row and `row R q` is row `2·R + q` of the unpacked array: entry
  `(row R q, k)` of the unpacked array is entry `(R, lane q k)` of the packed one.
-/
import Idealize.ShloMosaic.PureOps.Ideal
import Idealize.ShloMosaic.Lib.ValueIdx

noncomputable section

open scoped BigOperators

namespace Cert.Gin

open Idealize.ShloMosaic Idealize.ShloMosaic.ValueIdx

/-- Entry `(r, c)` of `relu((x + agg) · W₁ + b₁) · W₂ + b₂` for arrays of `R` rows and `n` columns: the hidden unit `k` is
    `max (∑ k', (x r k' + agg r k') · W₁ k' k + b₁ k) 0`, and the entry is `∑ k, hidden k · W₂ k c + b₂ c`. -/
def mlpAt {R n : ℕ} (x agg : (⟨2, ![R, n]⟩ : Shape).Idx → EReal) (W1 : (⟨2, ![n, n]⟩ : Shape).Idx → EReal)
    (b1 : (⟨1, ![n]⟩ : Shape).Idx → EReal) (W2 : (⟨2, ![n, n]⟩ : Shape).Idx → EReal) (b2 : (⟨1, ![n]⟩ : Shape).Idx → EReal)
    (r : Fin R) (c : Fin n) : EReal :=
  (∑ k : Fin n, max ((∑ k' : Fin n, (x (ix2 r k') + agg (ix2 r k')) * W1 (ix2 k' k)) + b1 (ix1 k)) 0 * W2 (ix2 k c)) + b2 (ix1 c)

/-- The whole result array: entry `i` is `mlpAt` at `i`'s row and column. -/
def mlpArr {R n : ℕ} (x agg : (⟨2, ![R, n]⟩ : Shape).Idx → EReal) (W1 : (⟨2, ![n, n]⟩ : Shape).Idx → EReal)
    (b1 : (⟨1, ![n]⟩ : Shape).Idx → EReal) (W2 : (⟨2, ![n, n]⟩ : Shape).Idx → EReal) (b2 : (⟨1, ![n]⟩ : Shape).Idx → EReal) :
    (⟨2, ![R, n]⟩ : Shape).Idx → EReal :=
  fun i => mlpAt x agg W1 b1 W2 b2 (i 0) (i 1)

theorem mlpArr_apply {R n : ℕ} (x agg : (⟨2, ![R, n]⟩ : Shape).Idx → EReal) (W1 : (⟨2, ![n, n]⟩ : Shape).Idx → EReal)
    (b1 : (⟨1, ![n]⟩ : Shape).Idx → EReal) (W2 : (⟨2, ![n, n]⟩ : Shape).Idx → EReal) (b2 : (⟨1, ![n]⟩ : Shape).Idx → EReal)
    (r : Fin R) (c : Fin n) : mlpArr x agg W1 b1 W2 b2 (ix2 r c) = mlpAt x agg W1 b1 W2 b2 r c := rfl

/-- Lane `64·q + k` of a packed row: column `k` of the row's half `q`. -/
def lane (q : Fin 2) (k : Fin 64) : Fin 128 := ⟨64 * q.val + k.val, by omega⟩

/-- Row `2·R + q` of the unpacked array: half `q` of packed row `R`. -/
def row (R : Fin 50000) (q : Fin 2) : Fin 100000 := ⟨2 * R.val + q.val, by omega⟩

theorem lane_val (q : Fin 2) (k : Fin 64) : (lane q k).val = 64 * q.val + k.val := rfl
theorem row_val (R : Fin 50000) (q : Fin 2) : (row R q).val = 2 * R.val + q.val := rfl

/-- Every lane is a column of one of the two halves. -/
theorem exists_lane (K : Fin 128) : ∃ (q : Fin 2) (k : Fin 64), K = lane q k :=
  ⟨⟨K.val / 64, by omega⟩, ⟨K.val % 64, by omega⟩, Fin.ext (by show K.val = 64 * (K.val / 64) + K.val % 64; omega)⟩

/-- Every row is a half of one packed row. -/
theorem exists_row (r : Fin 100000) : ∃ (R : Fin 50000) (q : Fin 2), r = row R q :=
  ⟨⟨r.val / 2, by omega⟩, ⟨r.val % 2, by omega⟩, Fin.ext (by show r.val = 2 * (r.val / 2) + r.val % 2; omega)⟩

end Cert.Gin

end
-- ==== Proof.RefSpec.lean ====
/-
  The reference program's result, read at one index, is the specification: entry `(r, c)` of
  `relu((x + agg) · W₁ + b₁) · W₂ + b₂`, where `agg` is the array of the neighbours' summed rows (kept opaque).
-/
import proofs.«131448_j58437325029516_2_alg».proof.Proof.Spec
import proofs.«131448_j58437325029516_2_alg».proof.Proof.Gen.ReferenceIdeal.Read
import Idealize.ShloMosaic.PureOps.Ideal.Laws
noncomputable section
open scoped BigOperators
namespace Cert.Gin.Ref
open Idealize.ShloMosaic Idealize.ShloMosaic.ValueIdx Cert.ReferenceIdeal Cert.ReferenceIdeal.Read

/-- The second product's left operand is read at row `r`, column `k`. -/
private theorem lidx20 (r : Fin 100000) (c k : Fin 64) : lidx_main_v20 (ix2 r c) k = ix2 r k :=
  funext fun a => Fin.ext (by match a with | ⟨0, _⟩ => rfl | ⟨1, _⟩ => rfl)

/-- The second product's right operand is read at row `k`, column `c`. -/
private theorem ridx20 (r : Fin 100000) (c k : Fin 64) : ridx_main_v20 (ix2 r c) k = ix2 k c :=
  funext fun a => Fin.ext (by match a with | ⟨0, _⟩ => rfl | ⟨1, _⟩ => rfl)

/-- The first product's left operand is read at row `r`, column `k'`. -/
private theorem lidx15 (r : Fin 100000) (k k' : Fin 64) : lidx_main_v15 (ix2 r k) k' = ix2 r k' :=
  funext fun a => Fin.ext (by match a with | ⟨0, _⟩ => rfl | ⟨1, _⟩ => rfl)

/-- The first product's right operand is read at row `k'`, column `k`. -/
private theorem ridx15 (r : Fin 100000) (k k' : Fin 64) : ridx_main_v15 (ix2 r k) k' = ix2 k' k :=
  funext fun a => Fin.ext (by match a with | ⟨0, _⟩ => rfl | ⟨1, _⟩ => rfl)

/-- The first bias, broadcast along the rows, is read at its column. -/
private theorem bidx1 (r : Fin 100000) (k : Fin 64) : idx_main_v16 (idx_main_v17 (ix2 r k)) = ix1 k :=
  funext fun a => Fin.ext (by match a with | ⟨0, _⟩ => rfl)

/-- The second bias, broadcast along the rows, is read at its column. -/
private theorem bidx2 (r : Fin 100000) (c : Fin 64) : idx_main_v21 (idx_main_v22 (ix2 r c)) = ix1 c :=
  funext fun a => Fin.ext (by match a with | ⟨0, _⟩ => rfl)

/-- The hidden layer at `(r, k)`: `max (∑ k', (x r k' + agg r k') · W₁ k' k + b₁ k) 0`. -/
private theorem hidden_apply (x0 : (⟨S100000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal))
    (r : Fin 100000) (k : Fin 64) :
    val_main_v19 (F := Ideal) x0 x1 x2 x3 (ix2 r k)
      = max ((∑ k' : Fin 64, (x0 (ix2 r k') + val_main_v13 (F := Ideal) x0 x1 (ix2 r k')) * x2 (ix2 k' k)) + x3 (ix1 k)) 0 := by
  rw [val_main_v19_apply, val_main_v18_apply, val_main_v15_apply, val_main_v17_apply, val_main_v16_apply,
    val_main_call0_v0_apply, val_main_call0_cst_apply, bidx1]
  simp only [val_main_v14_apply, lidx15, ridx15, Ideal.addf_def, Ideal.maximumf_def, Ideal.ofBits_def, Ideal.ofBits_zero_f32]

/-- The reference's result at `(r, c)` is `∑ k, max (∑ k', (x r k' + agg r k') · W₁ k' k + b₁ k) 0 · W₂ k c + b₂ c`,
    with `agg` the array of the neighbours' summed rows. -/
theorem ref_apply (x0 : (⟨S100000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (r : Fin 100000) (c : Fin 64) :
    val_main_v23 (F := Ideal) x0 x1 x2 x3 x4 x5 (ix2 r c)
      = Cert.Gin.mlpAt x0 (val_main_v13 (F := Ideal) x0 x1) x2 x3 x4 x5 r c := by
  rw [val_main_v23_apply, val_main_v20_apply, val_main_v22_apply, val_main_v21_apply, bidx2]
  simp only [lidx20, ridx20, hidden_apply, Ideal.addf_def]
  rfl

end Cert.Gin.Ref

end
-- ==== Proof.Algebra.lean ====
/-
  Pure algebra on the extended reals: the perceptron evaluated on the PACKED data (two rows of 64 columns side by side
  as one row of 128 lanes, block-diagonal weights `[[W, 0], [0, W]]`, biases repeated twice) agrees entry by entry with
  the perceptron on the unpacked data.

  The one fact used about the extended reals beyond their being a commutative additive monoid is `x * 0 = 0` for EVERY
  `x` (infinite ones included), so the off-diagonal zero blocks of the packed weights delete the other half-row's lanes
  with no finiteness hypothesis. Distributivity, cancellation and subtraction are never used.
-/
import proofs.«131448_j58437325029516_2_alg».proof.Proof.Spec
noncomputable section
open scoped BigOperators
namespace Cert.Gin
open Idealize.ShloMosaic Idealize.ShloMosaic.ValueIdx

/-- The 128 lanes of a packed row are the pairs (half `q`, column `k`): `(q, k) ↦ lane q k = 64·q + k` is a bijection
    `Fin 2 × Fin 64 ≃ Fin 128`, with inverse `K ↦ (K / 64, K % 64)`. -/
private def laneEquiv : Fin 2 × Fin 64 ≃ Fin 128 where
  toFun p := lane p.1 p.2
  invFun K := (⟨K.val / 64, by omega⟩, ⟨K.val % 64, by omega⟩)
  left_inv p := by
    obtain ⟨q, k⟩ := p
    refine Prod.ext (Fin.ext ?_) (Fin.ext ?_)
    · show (64 * q.val + k.val) / 64 = q.val
      omega
    · show (64 * q.val + k.val) % 64 = k.val
      omega
  right_inv K := by
    refine Fin.ext ?_
    show 64 * (K.val / 64) + K.val % 64 = K.val
    omega

/-- A sum over the 128 lanes is the sum over the two halves of the sums over each half's 64 columns. -/
private theorem sum_lanes (g : Fin 128 → EReal) : ∑ K, g K = ∑ q : Fin 2, ∑ k : Fin 64, g (lane q k) := by
  rw [← Equiv.sum_comp laneEquiv g, Fintype.sum_prod_type]
  rfl

/-- Against block-diagonal weights `V = [[W, 0], [0, W]]`, the contraction `∑ K, f K · V K (lane q c)` over the 128 lanes
    keeps only the 64 lanes of half `q`: on the other half every term is `f K · 0 = 0` (true for every extended real
    `f K`, infinite or not), and on half `q` the weight is `W k c`. -/
private theorem sum_blockdiag (f : Fin 128 → EReal) (V : (⟨2, ![128, 128]⟩ : Shape).Idx → EReal)
    (W : (⟨2, ![64, 64]⟩ : Shape).Idx → EReal)
    (hV : ∀ (q q' : Fin 2) (k k' : Fin 64), V (ix2 (lane q k) (lane q' k')) = if q = q' then W (ix2 k k') else 0)
    (q : Fin 2) (c : Fin 64) :
    (∑ K : Fin 128, f K * V (ix2 K (lane q c))) = ∑ k : Fin 64, f (lane q k) * W (ix2 k c) := by
  refine (sum_lanes (fun K => f K * V (ix2 K (lane q c)))).trans ?_
  refine (Finset.sum_eq_single q ?_ ?_).trans ?_
  · intro q' _ hne
    refine Finset.sum_eq_zero fun k _ => ?_
    show f (lane q' k) * V (ix2 (lane q' k) (lane q c)) = 0
    rw [hV q' q k c, if_neg hne, mul_zero]
  · intro h
    exact absurd (Finset.mem_univ q) h
  · refine Finset.sum_congr rfl fun k _ => ?_
    show f (lane q k) * V (ix2 (lane q k) (lane q c)) = f (lane q k) * W (ix2 k c)
    rw [hV q q k c, if_pos rfl]

/-- THE PACKED PERCEPTRON IS THE PERCEPTRON. If the packed arrays `x2`, `agg2` hold the unpacked `x`, `agg` (entry
    `(R, lane q k)` of the packed array is entry `(row R q, k)` of the unpacked one), the packed weights `V1`, `V2` are
    block-diagonal with both diagonal blocks `W1`, `W2`, and the packed biases `c1`, `c2` repeat `b1`, `b2` on each half,
    then entry `(R, lane q c)` of the perceptron on the packed data is entry `(row R q, c)` of the perceptron on the
    unpacked data. Both contractions over 128 lanes collapse to the 64 lanes of half `q` by `sum_blockdiag`. -/
theorem mlpAt_packed
    (x agg : (⟨2, ![100000, 64]⟩ : Shape).Idx → EReal) (x2 agg2 : (⟨2, ![50000, 128]⟩ : Shape).Idx → EReal)
    (W1 W2 : (⟨2, ![64, 64]⟩ : Shape).Idx → EReal) (V1 V2 : (⟨2, ![128, 128]⟩ : Shape).Idx → EReal)
    (b1 b2 : (⟨1, ![64]⟩ : Shape).Idx → EReal) (c1 c2 : (⟨1, ![128]⟩ : Shape).Idx → EReal)
    (hx : ∀ (R : Fin 50000) (q : Fin 2) (k : Fin 64), x2 (ix2 R (lane q k)) = x (ix2 (row R q) k))
    (hagg : ∀ (R : Fin 50000) (q : Fin 2) (k : Fin 64), agg2 (ix2 R (lane q k)) = agg (ix2 (row R q) k))
    (hV1 : ∀ (q q' : Fin 2) (k k' : Fin 64), V1 (ix2 (lane q k) (lane q' k')) = if q = q' then W1 (ix2 k k') else 0)
    (hV2 : ∀ (q q' : Fin 2) (k k' : Fin 64), V2 (ix2 (lane q k) (lane q' k')) = if q = q' then W2 (ix2 k k') else 0)
    (hc1 : ∀ (q : Fin 2) (k : Fin 64), c1 (ix1 (lane q k)) = b1 (ix1 k))
    (hc2 : ∀ (q : Fin 2) (k : Fin 64), c2 (ix1 (lane q k)) = b2 (ix1 k))
    (R : Fin 50000) (q : Fin 2) (c : Fin 64) :
    mlpAt x2 agg2 V1 c1 V2 c2 R (lane q c) = mlpAt x agg W1 b1 W2 b2 (row R q) c := by
  -- the hidden unit of lane `lane q k` of the packed row is the hidden unit `k` of the unpacked row
  have hidden : ∀ k : Fin 64,
      (∑ K' : Fin 128, (x2 (ix2 R K') + agg2 (ix2 R K')) * V1 (ix2 K' (lane q k))) + c1 (ix1 (lane q k))
        = (∑ k' : Fin 64, (x (ix2 (row R q) k') + agg (ix2 (row R q) k')) * W1 (ix2 k' k)) + b1 (ix1 k) := by
    intro k
    have h1 := sum_blockdiag (fun K' => x2 (ix2 R K') + agg2 (ix2 R K')) V1 W1 hV1 q k
    refine (congrArg₂ (· + ·) h1 (hc1 q k)).trans ?_
    refine congrArg (· + b1 (ix1 k)) ?_
    refine Finset.sum_congr rfl fun k' _ => ?_
    show (x2 (ix2 R (lane q k')) + agg2 (ix2 R (lane q k'))) * W1 (ix2 k' k) = _
    rw [hx R q k', hagg R q k']
  show (∑ K : Fin 128, max ((∑ K' : Fin 128, (x2 (ix2 R K') + agg2 (ix2 R K')) * V1 (ix2 K' K)) + c1 (ix1 K)) 0
          * V2 (ix2 K (lane q c))) + c2 (ix1 (lane q c))
      = (∑ k : Fin 64, max ((∑ k' : Fin 64, (x (ix2 (row R q) k') + agg (ix2 (row R q) k')) * W1 (ix2 k' k)) + b1 (ix1 k)) 0
          * W2 (ix2 k c)) + b2 (ix1 c)
  have h2 := sum_blockdiag
    (fun K => max ((∑ K' : Fin 128, (x2 (ix2 R K') + agg2 (ix2 R K')) * V1 (ix2 K' K)) + c1 (ix1 K)) 0) V2 W2 hV2 q c
  refine (congrArg₂ (· + ·) h2 (hc2 q c)).trans ?_
  refine congrArg (· + b2 (ix1 c)) ?_
  refine Finset.sum_congr rfl fun k _ => ?_
  show max ((∑ K' : Fin 128, (x2 (ix2 R K') + agg2 (ix2 R K')) * V1 (ix2 K' (lane q k))) + c1 (ix1 (lane q k))) 0
      * W2 (ix2 k c) = _
  rw [hidden k]

end Cert.Gin

end
-- ==== Proof.Layout.lean ====
/-
  Four layout operations read at an index, for any element type: the packing of two consecutive 64-column rows into one
  128-lane row (a shape cast between `[100000, 64]` and `[50000, 128]`, either way), the block-diagonal 128 × 128
  matrix `[[W, Z], [Z, W]]` built from two column-concatenations joined by rows, and a 64-vector repeated twice.
-/
import proofs.«131448_j58437325029516_2_alg».proof.Proof.Spec
import Idealize.ShloMosaic.Lib.Pipeline.Value
noncomputable section
namespace Cert.Gin
open Idealize.ShloMosaic Idealize.ShloMosaic.ValueIdx
variable {α : Type}

/-- Packing: entry `(R, 64·q + k)` of the `[50000, 128]` cast of a `[100000, 64]` array is the array's entry
    `(2·R + q, k)`, because both sit at row-major position `(2·R + q)·64 + k = R·128 + (64·q + k)`. -/
theorem pack_apply (x : (⟨2, ![100000, 64]⟩ : Shape).Idx → α) (h : (⟨2, ![100000, 64]⟩ : Shape).ShapeCasts ⟨2, ![50000, 128]⟩)
    (R : Fin 50000) (q : Fin 2) (k : Fin 64) :
    shapeCast ⟨2, ![50000, 128]⟩ x h (ix2 R (lane q k)) = x (ix2 (row R q) k) :=
  shapeCast_apply x h _ _ (by
    rw [Shape.rowMajor_val_two, Shape.rowMajor_val_two]
    show (2 * R.val + q.val) * 64 + k.val = R.val * 128 + (64 * q.val + k.val)
    omega)

/-- Unpacking: entry `(2·R + q, k)` of the `[100000, 64]` cast of a `[50000, 128]` array is the array's entry
    `(R, 64·q + k)`, because both sit at row-major position `R·128 + (64·q + k) = (2·R + q)·64 + k`. -/
theorem unpack_apply (y : (⟨2, ![50000, 128]⟩ : Shape).Idx → α) (h : (⟨2, ![50000, 128]⟩ : Shape).ShapeCasts ⟨2, ![100000, 64]⟩)
    (R : Fin 50000) (q : Fin 2) (k : Fin 64) :
    shapeCast ⟨2, ![100000, 64]⟩ y h (ix2 (row R q) k) = y (ix2 R (lane q k)) :=
  shapeCast_apply y h _ _ (by
    rw [Shape.rowMajor_val_two, Shape.rowMajor_val_two]
    show R.val * 128 + (64 * q.val + k.val) = (2 * R.val + q.val) * 64 + k.val
    omega)

/-- A column-concatenation `[A | B]` of two 64 × 64 blocks read at `(k, 64·q' + k')`: block `A` at `(k, k')` in the
    left half (`q' = 0`), block `B` at `(k, k')` in the right half (`q' = 1`). -/
private theorem hcat_apply (A B : (⟨2, ![64, 64]⟩ : Shape).Idx → α)
    (h1 : Shape.Concatenates [(⟨2, ![64, 64]⟩ : Shape), ⟨2, ![64, 64]⟩] ⟨2, ![64, 128]⟩ 1)
    (q' : Fin 2) (k k' : Fin 64) :
    concatenate ⟨2, ![64, 128]⟩ 1 [⟨⟨2, ![64, 64]⟩, A⟩, ⟨⟨2, ![64, 64]⟩, B⟩] h1 (ix2 k (lane q' k'))
      = if q' = 0 then A (ix2 k k') else B (ix2 k k') := by
  match q' with
  | ⟨0, _⟩ =>
    refine (concatenate_pair_apply_left 1 A B h1 _ rfl (ix2 k k') ?_).trans ?_
    · intro b
      match b with
      | ⟨0, _⟩ => rfl
      | ⟨1, _⟩ => show k'.val = 64 * 0 + k'.val; omega
    · rfl
  | ⟨1, _⟩ =>
    refine (concatenate_pair_apply_right 1 A B h1 _ rfl rfl (ix2 k k') ?_ ?_).trans ?_
    · intro b hb
      match b with
      | ⟨0, _⟩ => rfl
      | ⟨1, _⟩ => exact absurd rfl hb
    · show k'.val + 64 = 64 * 1 + k'.val; omega
    · rfl

/-- The block-diagonal matrix: the 128 × 128 array whose top 64 rows are `[W | Z]` and bottom 64 rows are `[Z | W]`,
    read at `(64·q + k, 64·q' + k')`, is `W (k, k')` on the two diagonal blocks (`q = q'`) and the constant value `z`
    of `Z` on the two off-diagonal blocks. -/
theorem blockDiag_apply (W Z : (⟨2, ![64, 64]⟩ : Shape).Idx → α) (z : α) (hZ : ∀ i, Z i = z)
    (h1 : Shape.Concatenates [(⟨2, ![64, 64]⟩ : Shape), ⟨2, ![64, 64]⟩] ⟨2, ![64, 128]⟩ 1)
    (h0 : Shape.Concatenates [(⟨2, ![64, 128]⟩ : Shape), ⟨2, ![64, 128]⟩] ⟨2, ![128, 128]⟩ 0)
    (q q' : Fin 2) (k k' : Fin 64) :
    concatenate ⟨2, ![128, 128]⟩ 0
        [⟨⟨2, ![64, 128]⟩, concatenate ⟨2, ![64, 128]⟩ 1 [⟨⟨2, ![64, 64]⟩, W⟩, ⟨⟨2, ![64, 64]⟩, Z⟩] h1⟩,
         ⟨⟨2, ![64, 128]⟩, concatenate ⟨2, ![64, 128]⟩ 1 [⟨⟨2, ![64, 64]⟩, Z⟩, ⟨⟨2, ![64, 64]⟩, W⟩] h1⟩] h0
        (ix2 (lane q k) (lane q' k'))
      = if q = q' then W (ix2 k k') else z := by
  match q with
  | ⟨0, _⟩ =>
    -- a row of the top half: the row `k` of `[W | Z]`
    refine (concatenate_pair_apply_left 0 _ _ h0 _ rfl (ix2 k (lane q' k')) ?_).trans ?_
    · intro b
      match b with
      | ⟨0, _⟩ => show k.val = 64 * 0 + k.val; omega
      | ⟨1, _⟩ => rfl
    · refine (hcat_apply W Z h1 q' k k').trans ?_
      match q' with
      | ⟨0, _⟩ => rfl
      | ⟨1, _⟩ => exact hZ _
  | ⟨1, _⟩ =>
    -- a row of the bottom half: the row `k` of `[Z | W]`
    refine (concatenate_pair_apply_right 0 _ _ h0 _ rfl rfl (ix2 k (lane q' k')) ?_ ?_).trans ?_
    · intro b hb
      match b with
      | ⟨0, _⟩ => exact absurd rfl hb
      | ⟨1, _⟩ => rfl
    · show k.val + 64 = 64 * 1 + k.val; omega
    · refine (hcat_apply Z W h1 q' k k').trans ?_
      match q' with
      | ⟨0, _⟩ => exact hZ _
      | ⟨1, _⟩ => rfl

/-- A 64-vector repeated twice, read at lane `64·q + k`, is the vector's entry `k` in either half. -/
theorem twice_apply (b : (⟨1, ![64]⟩ : Shape).Idx → α) (h : Shape.Concatenates [(⟨1, ![64]⟩ : Shape), ⟨1, ![64]⟩] ⟨1, ![128]⟩ 0)
    (q : Fin 2) (k : Fin 64) :
    concatenate ⟨1, ![128]⟩ 0 [⟨⟨1, ![64]⟩, b⟩, ⟨⟨1, ![64]⟩, b⟩] h (ix1 (lane q k)) = b (ix1 k) := by
  match q with
  | ⟨0, _⟩ =>
    refine concatenate_pair_apply_left 0 b b h _ rfl (ix1 k) ?_
    intro c
    match c with
    | ⟨0, _⟩ => show k.val = 64 * 0 + k.val; omega
  | ⟨1, _⟩ =>
    refine concatenate_pair_apply_right 0 b b h _ rfl rfl (ix1 k) ?_ ?_
    · intro c hc
      match c with
      | ⟨0, _⟩ => exact absurd rfl hc
    · show k.val + 64 = 64 * 1 + k.val; omega

end Cert.Gin

end
-- ==== Proof.Bridge.lean ====
/-
  The bridge from the entrywise algebra to whole arrays: unpacking (reading the `[50000, 128]` array as `[100000, 64]`)
  the perceptron of the PACKED arrays — `x` and `agg` packed two rows to a row, the block-diagonal weights
  `[[W, Z], [Z, W]]` with `Z` a zero block, the biases repeated twice — is the perceptron of the unpacked arrays.

  Entry `(2·R + q, c)` of the unpacked result is entry `(R, 64·q + c)` of the packed result; the layout operations read
  at an index supply exactly the hypotheses of the entrywise statement `mlpAt_packed`.
-/
import proofs.«131448_j58437325029516_2_alg».proof.Proof.Spec
import proofs.«131448_j58437325029516_2_alg».proof.Proof.Algebra
import proofs.«131448_j58437325029516_2_alg».proof.Proof.Layout
noncomputable section
open scoped BigOperators
namespace Cert.Gin
open Idealize.ShloMosaic Idealize.ShloMosaic.ValueIdx

/-- UNPACKING THE PACKED PERCEPTRON GIVES THE PERCEPTRON, as whole arrays. Pack `x` and `agg` (`[100000, 64]` read as
    `[50000, 128]`), build the 128 × 128 weights `[[W, Z], [Z, W]]` from `W₁`, `W₂` and a block `Z` that is zero everywhere,
    repeat the biases `b₁`, `b₂` twice, evaluate `relu((x + agg) · V₁ + c₁) · V₂ + c₂` on these, and read the result back as
    `[100000, 64]`: this is `relu((x + agg) · W₁ + b₁) · W₂ + b₂` on the original arrays. Entry by entry: an index is
    `(2·R + q, c)`; the unpacked result there is the packed result at `(R, 64·q + c)`; packed `x`, `agg` at `(R, 64·q + k)`
    are `x`, `agg` at `(2·R + q, k)`; the weights at `(64·q + k, 64·q' + k')` are `W (k, k')` if `q = q'` and `0`
    otherwise; the biases at `64·q + k` are `b k`; so the entrywise statement `mlpAt_packed` applies. -/
theorem unpack_mlpArr_packed
    (x agg : (⟨2, ![100000, 64]⟩ : Shape).Idx → EReal)
    (W1 W2 Z : (⟨2, ![64, 64]⟩ : Shape).Idx → EReal) (b1 b2 : (⟨1, ![64]⟩ : Shape).Idx → EReal)
    (hZ : ∀ i, Z i = 0)
    (hp : (⟨2, ![100000, 64]⟩ : Shape).ShapeCasts ⟨2, ![50000, 128]⟩)
    (hu : (⟨2, ![50000, 128]⟩ : Shape).ShapeCasts ⟨2, ![100000, 64]⟩)
    (h1 : Shape.Concatenates [(⟨2, ![64, 64]⟩ : Shape), ⟨2, ![64, 64]⟩] ⟨2, ![64, 128]⟩ 1)
    (h0 : Shape.Concatenates [(⟨2, ![64, 128]⟩ : Shape), ⟨2, ![64, 128]⟩] ⟨2, ![128, 128]⟩ 0)
    (hb : Shape.Concatenates [(⟨1, ![64]⟩ : Shape), ⟨1, ![64]⟩] ⟨1, ![128]⟩ 0) :
    shapeCast ⟨2, ![100000, 64]⟩
      (mlpArr (R := 50000) (n := 128) (shapeCast ⟨2, ![50000, 128]⟩ x hp) (shapeCast ⟨2, ![50000, 128]⟩ agg hp)
        (concatenate ⟨2, ![128, 128]⟩ 0
          [⟨⟨2, ![64, 128]⟩, concatenate ⟨2, ![64, 128]⟩ 1 [⟨⟨2, ![64, 64]⟩, W1⟩, ⟨⟨2, ![64, 64]⟩, Z⟩] h1⟩,
           ⟨⟨2, ![64, 128]⟩, concatenate ⟨2, ![64, 128]⟩ 1 [⟨⟨2, ![64, 64]⟩, Z⟩, ⟨⟨2, ![64, 64]⟩, W1⟩] h1⟩] h0)
        (concatenate ⟨1, ![128]⟩ 0 [⟨⟨1, ![64]⟩, b1⟩, ⟨⟨1, ![64]⟩, b1⟩] hb)
        (concatenate ⟨2, ![128, 128]⟩ 0
          [⟨⟨2, ![64, 128]⟩, concatenate ⟨2, ![64, 128]⟩ 1 [⟨⟨2, ![64, 64]⟩, W2⟩, ⟨⟨2, ![64, 64]⟩, Z⟩] h1⟩,
           ⟨⟨2, ![64, 128]⟩, concatenate ⟨2, ![64, 128]⟩ 1 [⟨⟨2, ![64, 64]⟩, Z⟩, ⟨⟨2, ![64, 64]⟩, W2⟩] h1⟩] h0)
        (concatenate ⟨1, ![128]⟩ 0 [⟨⟨1, ![64]⟩, b2⟩, ⟨⟨1, ![64]⟩, b2⟩] hb)) hu
      = mlpArr (R := 100000) (n := 64) x agg W1 b1 W2 b2 := by
  funext i
  -- an index of the unpacked array is `(2·R + q, c)`
  obtain ⟨r, c, rfl⟩ : ∃ (r : Fin 100000) (c : Fin 64), i = ix2 r c := ⟨i 0, i 1, eq_ix2 i⟩
  obtain ⟨R, q, rfl⟩ := exists_row r
  -- the unpacked result there is the packed result at `(R, 64·q + c)`
  refine (unpack_apply _ hu R q c).trans ?_
  refine (mlpArr_apply _ _ _ _ _ _ R (lane q c)).trans ?_
  -- the entrywise statement, its hypotheses read off the layout operations
  refine (mlpAt_packed x agg _ _ W1 W2 _ _ b1 b2 _ _ ?_ ?_ ?_ ?_ ?_ ?_ R q c).trans ?_
  · intro R q k
    exact pack_apply x hp R q k
  · intro R q k
    exact pack_apply agg hp R q k
  · intro q q' k k'
    exact blockDiag_apply W1 Z 0 hZ h1 h0 q q' k k'
  · intro q q' k k'
    exact blockDiag_apply W2 Z 0 hZ h1 h0 q q' k k'
  · intro q k
    exact twice_apply b1 hb q k
  · intro q k
    exact twice_apply b2 hb q k
  · exact (mlpArr_apply x agg W1 b1 W2 b2 (row R q) c).symm

end Cert.Gin

end
-- ==== Proof.KHost.lean ====
/-
  What the kernel program's host operations leave in the six arrays its pallas_call reads, over the extended reals, each
  as a term of the program's arguments: `x` packed two rows to a row; the neighbours' sum (rows of `x` gathered at the
  source indices and scatter-added at the destination indices) packed the same way; the two weight matrices as
  block-diagonal 128 × 128 matrices `[[W, 0], [0, W]]` (built by concatenation with a block of zeros; the conversion to
  the narrower float format is the identity on the extended reals); the two biases repeated twice.
-/
import proofs.«131448_j58437325029516_2_alg».proof.Proof.Gen.KernelIdeal.Frame
import Idealize.ShloMosaic.Lib.StableHlo.Run
import Idealize.ShloMosaic.Lib.ValueIdx
import Idealize.ShloMosaic.PureOps.Ideal.Laws
noncomputable section
namespace Cert.Gin.Kernel
open Idealize.ShloMosaic Idealize.ShloMosaic.TcCoe Idealize.SL.Sem Idealize.ShloMosaic.StableHlo Idealize.ShloMosaic.ValueIdx Cert.KernelIdeal Cert.KernelIdeal.Gen
variable (m : (ℓ : Loc nD τ sig) → Buf (Elt Ideal) ℓ)

/-- The 64 × 64 block of zeros the block-diagonal weights are padded with. -/
def zeros : (⟨S64x64, .f32⟩ : BufTy).Contents (Elt Ideal) :=
  broadcastInDim S64x64 ![] bcast_S_S64x64 (constant (F := Ideal) S_ .f32 0x00000000#32)

/-- Every entry of the zero block is the extended real `0`: the block is the scalar with all bits clear, repeated. -/
theorem zeros_apply (i : S64x64.Idx) : zeros i = 0 := by
  show Ideal.ofBits .f32 0x00000000#32 = 0
  exact Ideal.ofBits_zero_f32

/-- The neighbours' sum as the program computes it: the rows of `x` gathered at the source indices (the first row of
    `edge_index`, a negative index wrapped by adding the row count 100000) and added into an array of zeros at the
    destination indices (the second row of `edge_index`) — operations %0 … %13 of @main composed, as a function of the
    arrays `x` (argument 0) and `edge_index` (argument 1). -/
def aggK (x0 : (⟨S100000x64, .f32⟩ : BufTy).Contents (Elt Ideal)) (x1 : (⟨S2x1250000, .i32⟩ : BufTy).Contents (Elt Ideal)) :
    (⟨S100000x64, .f32⟩ : BufTy).Contents (Elt Ideal) :=
  Host.scatterAdd scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0
      (shapeCast _ (extractStridedSlice S1x1250000 ![1, 0] x1 slices_S2x1250000_S1x1250000_1_0) shapeCasts_S1x1250000_S1250000))
    (Host.gather gather_S100000x64_S1250000x1_S1250000x64_1_0_n_n_0_1_164 x0
      (broadcastInDim S1250000x1 ![0] bcast_S1250000_S1250000x1_0
        (select
          (cmpi .slt (shapeCast _ (extractStridedSlice S1x1250000 ![0, 0] x1 slices_S2x1250000_S1x1250000_0_0) shapeCasts_S1x1250000_S1250000)
            (broadcastInDim S1250000 ![] bcast_S_S1250000 (constantI S_ 32 0#32)))
          (addi (shapeCast _ (extractStridedSlice S1x1250000 ![0, 0] x1 slices_S2x1250000_S1x1250000_0_0) shapeCasts_S1x1250000_S1250000)
            (broadcastInDim S1250000 ![] bcast_S_S1250000 (constantI S_ 32 100000#32)))
          (shapeCast _ (extractStridedSlice S1x1250000 ![0, 0] x1 slices_S2x1250000_S1x1250000_0_0) shapeCasts_S1x1250000_S1250000))))

/-- The call's first array is `x` with two consecutive 64-column rows laid side by side as one 128-lane row. -/
theorem V_v14 (c : Dev nD) : (V m c main_v14 : S50000x128.Idx → EReal) = shapeCast S50000x128 (m ((c : Thread nD τ).loc main_arg0)) shapeCasts_S100000x64_S50000x128 := by
  show StableHlo.after hostOps0 (fun b => m (c, b)) (Proc.devRef .tc main_v14) = _
  after_results <;> rfl

/-- The call's second array is the neighbours' sum, packed the same way. -/
theorem V_v15 (c : Dev nD) : (V m c main_v15 : S50000x128.Idx → EReal) = shapeCast S50000x128 (aggK (m ((c : Thread nD τ).loc main_arg0)) (m ((c : Thread nD τ).loc main_arg1))) shapeCasts_S100000x64_S50000x128 := by
  show StableHlo.after hostOps0 (fun b => m (c, b)) (Proc.devRef .tc main_v15) = _
  after_results <;> rfl

/-- The call's first weight array is the block-diagonal matrix `[[W₁, 0], [0, W₁]]`: the rows `[W₁ | 0]` above the rows
    `[0 | W₁]` (the conversion to the narrower float format changes no extended real). -/
theorem V_v25 (c : Dev nD) : (V m c main_v25 : S128x128.Idx → EReal) = concatenate S128x128 0 [⟨S64x128, concatenate S64x128 1 [⟨S64x64, m ((c : Thread nD τ).loc main_arg2)⟩, ⟨S64x64, zeros⟩] concatenates_S64x64_S64x64_S64x128_d1⟩, ⟨S64x128, concatenate S64x128 1 [⟨S64x64, zeros⟩, ⟨S64x64, m ((c : Thread nD τ).loc main_arg2)⟩] concatenates_S64x64_S64x64_S64x128_d1⟩] concatenates_S64x128_S64x128_S128x128_d0 := by
  show StableHlo.after hostOps0 (fun b => m (c, b)) (Proc.devRef .tc main_v25) = _
  after_results <;> rfl

/-- The call's second weight array is the block-diagonal matrix `[[W₂, 0], [0, W₂]]`, built the same way. -/
theorem V_v26 (c : Dev nD) : (V m c main_v26 : S128x128.Idx → EReal) = concatenate S128x128 0 [⟨S64x128, concatenate S64x128 1 [⟨S64x64, m ((c : Thread nD τ).loc main_arg4)⟩, ⟨S64x64, zeros⟩] concatenates_S64x64_S64x64_S64x128_d1⟩, ⟨S64x128, concatenate S64x128 1 [⟨S64x64, zeros⟩, ⟨S64x64, m ((c : Thread nD τ).loc main_arg4)⟩] concatenates_S64x64_S64x64_S64x128_d1⟩] concatenates_S64x128_S64x128_S128x128_d0 := by
  show StableHlo.after hostOps0 (fun b => m (c, b)) (Proc.devRef .tc main_v26) = _
  after_results <;> rfl

/-- The call's first bias array is `b₁` repeated twice. -/
theorem V_v23 (c : Dev nD) : (V m c main_v23 : S128.Idx → EReal) = concatenate S128 0 [⟨S64, m ((c : Thread nD τ).loc main_arg3)⟩, ⟨S64, m ((c : Thread nD τ).loc main_arg3)⟩] concatenates_S64_S64_S128_d0 := by
  show StableHlo.after hostOps0 (fun b => m (c, b)) (Proc.devRef .tc main_v23) = _
  after_results <;> rfl

/-- The call's second bias array is `b₂` repeated twice. -/
theorem V_v24 (c : Dev nD) : (V m c main_v24 : S128.Idx → EReal) = concatenate S128 0 [⟨S64, m ((c : Thread nD τ).loc main_arg5)⟩, ⟨S64, m ((c : Thread nD τ).loc main_arg5)⟩] concatenates_S64_S64_S128_d0 := by
  show StableHlo.after hostOps0 (fun b => m (c, b)) (Proc.devRef .tc main_v24) = _
  after_results <;> rfl

end Cert.Gin.Kernel

end
-- ==== Proof.KPayload.lean ====
/-
  The kernel body's arithmetic, read at one entry of its block.

  The body loads a block of 5000 packed rows of `x` and of `agg`, adds them, multiplies by the 128 × 128 first weight
  matrix (a matrix product into a zero accumulator), adds the first bias row, takes the maximum with zero, multiplies by the
  second weight matrix, and adds the second bias row. Changes of float format are the identity on the extended reals, a
  matrix product into zero is the plain sum of products over the contracted lane, and a bias of shape [128] viewed as
  [1, 128] and broadcast over the rows reads its lane. So entry `(p, C)` of what the body stores is `mlpAt` of its loaded
  blocks at `(p, C)`: the perceptron on the packed row.
-/
import proofs.«131448_j58437325029516_2_alg».proof.Proof.Spec
import proofs.«131448_j58437325029516_2_alg».proof.Proof.Gen.KernelIdeal.Skeleton
import Idealize.ShloMosaic.Lib.Pipeline.Value
import Idealize.ShloMosaic.Lib.ValueLayout
import Idealize.ShloMosaic.PureOps.Ideal.Laws

noncomputable section

open scoped BigOperators

namespace Cert.Gin.Kernel

open Idealize.ShloMosaic Idealize.ShloMosaic.ValueIdx Cert.KernelIdeal Cert.KernelIdeal.Gen

/-- The row coordinate of the left operand's index at output entry `i` is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its lane coordinate is the contracted lane. -/
theorem lhs_lane (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The row coordinate of the right operand's index is the contracted lane. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Its lane coordinate is the output's lane. -/
theorem rhs_lane (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's matrix product into a zero accumulator, at entry `(p, K)`: the sum over the contracted lane `k` of the left
    operand's `(p, k)` times the right operand's `(k, K)`. -/
theorem matmul_zero_apply (a : FVec Ideal S5000x128 .bf16) (w : FVec Ideal S128x128 .bf16) (p : Fin 5000) (K : Fin 128) :
    matmul dot_S5000x128_S128x128_S5000x128_1_0_0_1_n_n none a w (constant S5000x128 .f32 0x00000000#32) (ix2 p K)
      = ∑ k : Fin 128, a (ix2 p k) * w (ix2 k K) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p K) ((ValueIdx.contrEquiv1 dot_S5000x128_S128x128_S5000x128_1_0_0_1_n_n 128 rfl rfl).symm k) = ix2 p k := funext fun ax => Fin.ext (by
    match ax with
    | ⟨0, _⟩ => exact lhs_row _ _
    | ⟨1, _⟩ => exact (lhs_lane _ _).trans hk)
  have er : dot_S5000x128_S128x128_S5000x128_1_0_0_1_n_n.rhsIdx (ix2 p K) ((ValueIdx.contrEquiv1 dot_S5000x128_S128x128_S5000x128_1_0_0_1_n_n 128 rfl rfl).symm k) = ix2 k K := funext fun ax => Fin.ext (by
    match ax with
    | ⟨0, _⟩ => exact (rhs_row _ _).trans hk
    | ⟨1, _⟩ => exact rhs_lane _ _)
  rw [el, er]

/-- A bias of shape [128], viewed as one row [1, 128] and broadcast over the 5000 rows, reads its lane `K` at `(p, K)`. -/
theorem bias_apply (b : FVec Ideal S128 .f32) (p : Fin 5000) (K : Fin 128) :
    broadcastTo S5000x128 (shapeCast S1x128 b shapeCasts_S128_S1x128) broadcasts_S1x128_S5000x128 (ix2 p K) = b (ix1 K) :=
  (broadcastTo_1b_ab_apply (shapeCast S1x128 b shapeCasts_S128_S1x128) broadcasts_S1x128_S5000x128 p K).trans
    (shapeCast_a_1a_apply b shapeCasts_S128_S1x128 (0 : Fin 1) K)

/-- One linear layer of the body at entry `(p, K)`: the row's product with the weights plus the bias lane. -/
theorem layer_apply (a : FVec Ideal S5000x128 .bf16) (w : FVec Ideal S128x128 .bf16) (b : FVec Ideal S128 .f32) (p : Fin 5000) (K : Fin 128) :
    addf (matmul dot_S5000x128_S128x128_S5000x128_1_0_0_1_n_n none a w (constant S5000x128 .f32 0x00000000#32))
        (broadcastTo S5000x128 (shapeCast S1x128 b shapeCasts_S128_S1x128) broadcasts_S1x128_S5000x128) (ix2 p K)
      = (∑ k : Fin 128, a (ix2 p k) * w (ix2 k K)) + b (ix1 K) := by
  rw [addf_apply, matmul_zero_apply, bias_apply]

/-- Entry `(p, C)` of what the body stores is the perceptron on packed row `p` of its loaded blocks, at lane `C`. -/
theorem pay_apply (x0 x1 : Vec Ideal S5000x128 .f32) (w1 : Vec Ideal S128x128 .bf16) (c1 : Vec Ideal S128 .f32)
    (w2 : Vec Ideal S128x128 .bf16) (c2 : Vec Ideal S128 .f32) (p : Fin 5000) (C : Fin 128) :
    k0_pay1 (F := Ideal) x0 x1 w1 c1 w2 c2 (ix2 p C) = mlpAt (R := 5000) (n := 128) x0 x1 w1 c1 w2 c2 p C := by
  unfold k0_pay1
  simp only [shapeCast_self]
  refine (layer_apply _ _ _ p C).trans ?_
  unfold mlpAt
  refine congrArg (· + c2 (ix1 C)) (Finset.sum_congr rfl fun k _ => congrArg (· * w2 (ix2 k C)) ?_)
  show max (addf (matmul dot_S5000x128_S128x128_S5000x128_1_0_0_1_n_n none (truncf .bf16 (addf x0 x1) bitsLt_bf16_f32) w1 (constant S5000x128 .f32 0x00000000#32))
        (broadcastTo S5000x128 (shapeCast S1x128 c1 shapeCasts_S128_S1x128) broadcasts_S1x128_S5000x128) (ix2 p k)) (Ideal.ofBits .f32 0x00000000#32) = _
  rw [layer_apply, Ideal.ofBits_zero_f32]
  rfl

end Cert.Gin.Kernel

end
-- ==== Proof.KIdx.lean ====
/-
  The grid of the kernel's pallas_call, decided once: where each window's block sits at each of the ten grid points, and
  the fact that the perceptron reads its arrays only at the entries of one row.
-/
import proofs.«131448_j58437325029516_2_alg».proof.Proof.Spec
import proofs.«131448_j58437325029516_2_alg».proof.Proof.KPayload
import proofs.«131448_j58437325029516_2_alg».proof.Proof.Gen.KernelIdeal.Frame
import Idealize.ShloMosaic.Lib.Pipeline.Value

set_option maxRecDepth 16384

noncomputable section

open scoped BigOperators

namespace Cert.Gin.Kernel

open Idealize.ShloMosaic Idealize.ShloMosaic.TcCoe Idealize.SL.Sem Idealize.ShloMosaic.ValueIdx Cert.KernelIdeal Cert.KernelIdeal.Gen
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The perceptron depends on its arrays only through the entries it reads: row `r` of `x` and `agg`, and every entry of
    the weights and biases. -/
theorem mlpAt_congr {R R' n : ℕ} (x agg : (⟨2, ![R, n]⟩ : Shape).Idx → EReal) (x' agg' : (⟨2, ![R', n]⟩ : Shape).Idx → EReal)
    (W1 W1' W2 W2' : (⟨2, ![n, n]⟩ : Shape).Idx → EReal) (b1 b1' b2 b2' : (⟨1, ![n]⟩ : Shape).Idx → EReal)
    (r : Fin R) (r' : Fin R') (c : Fin n)
    (hx : ∀ k, x (ix2 r k) = x' (ix2 r' k)) (hagg : ∀ k, agg (ix2 r k) = agg' (ix2 r' k))
    (hW1 : ∀ k k', W1 (ix2 k k') = W1' (ix2 k k')) (hW2 : ∀ k k', W2 (ix2 k k') = W2' (ix2 k k'))
    (hb1 : ∀ k, b1 (ix1 k) = b1' (ix1 k)) (hb2 : ∀ k, b2 (ix1 k) = b2' (ix1 k)) :
    mlpAt x agg W1 b1 W2 b2 r c = mlpAt x' agg' W1' b1' W2' b2' r' c := by
  unfold mlpAt
  simp only [hx, hagg, hW1, hW2, hb1, hb2]

/-- The printed index maps, decided over the ten grid points: the row windows (packed `x`, packed `agg`, the output)
    are at block `t` of the rows, the weight and bias windows at their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

end Cert.Gin.Kernel

end
-- ==== Proof.KBlocksA.lean ====
/-
  The blocks of the two row arrays. At grid point `t` the call reads rows `5000·t … 5000·t + 4999` of the packed `x` and
  of the packed `agg`: entry `x` of the block is the array's entry `5000·t` rows further down, in the same lane. Stated for
  ANY contents `A` of the array, so that nothing here depends on what the array holds.
-/
import proofs.«131448_j58437325029516_2_alg».proof.Proof.KIdx
import Idealize.ShloMosaic.Lib.Pipeline.Value

set_option maxRecDepth 16384

noncomputable section

open scoped BigOperators

namespace Cert.Gin.Kernel

open Idealize.ShloMosaic Idealize.ShloMosaic.TcCoe Idealize.SL.Sem Idealize.ShloMosaic.ValueIdx Cert.KernelIdeal Cert.KernelIdeal.Gen
open Idealize.ShloMosaic.Pipeline (Dat)

variable (m : (ℓ : Loc nD τ sig) → Buf (Elt Ideal) ℓ)

/-- Entry `x` of point `t`'s block of the first row array is the array's entry `5000·t` rows further down. -/
theorem read_rows0 (t : Fin cfg0.N) (A : S50000x128.Idx → EReal) (x : S5000x128.Idx) (k : S50000x128.Idx)
    (hk0 : (k 0).val = 5000 * t.val + (x 0).val) (hk1 : (k 1).val = (x 1).val) :
    (((cfg0.win 0).blk t).view.read (Elt Ideal) A : Vec Ideal S5000x128 .f32) x = A k := by
  obtain ⟨e0, e1, -⟩ := idx_facts t
  rw [View.read_apply]
  show A _ = _
  refine congrArg A (funext fun a => Fin.ext ?_)
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- The same for the second row array. -/
theorem read_rows1 (t : Fin cfg0.N) (A : S50000x128.Idx → EReal) (x : S5000x128.Idx) (k : S50000x128.Idx)
    (hk0 : (k 0).val = 5000 * t.val + (x 0).val) (hk1 : (k 1).val = (x 1).val) :
    (((cfg0.win 1).blk t).view.read (Elt Ideal) A : Vec Ideal S5000x128 .f32) x = A k := by
  obtain ⟨-, -, e0, e1, -⟩ := idx_facts t
  rw [View.read_apply]
  show A _ = _
  refine congrArg A (funext fun a => Fin.ext ?_)
  match a with
  | ⟨0, _⟩ => show win0_1.index t (0 : Fin 2) * 5000 + 1 * (x 0).val = (k 0).val; rw [e0, hk0]; omega
  | ⟨1, _⟩ => show win0_1.index t (1 : Fin 2) * 128 + 1 * (x 1).val = (k 1).val; rw [e1, hk1]; omega

end Cert.Gin.Kernel

end
-- ==== Proof.KBlocksB.lean ====
/-
  The blocks of the weights and biases. Each of these four windows has ONE block, the whole array, at every grid point:
  an entry of the block is the same entry of the array.
-/
import proofs.«131448_j58437325029516_2_alg».proof.Proof.KIdx
import Idealize.ShloMosaic.Lib.Pipeline.Value

set_option maxRecDepth 16384

noncomputable section

open scoped BigOperators

namespace Cert.Gin.Kernel

open Idealize.ShloMosaic Idealize.ShloMosaic.TcCoe Idealize.SL.Sem Idealize.ShloMosaic.ValueIdx Cert.KernelIdeal Cert.KernelIdeal.Gen
open Idealize.ShloMosaic.Pipeline (Dat)

variable (m : (ℓ : Loc nD τ sig) → Buf (Elt Ideal) ℓ)

/-- The first weight matrix's one block is the whole matrix. -/
theorem iblk2_apply (c : Dev nD) (t : Fin cfg0.N) (x : S128x128.Idx) :
    (iblk m c 2 t : Vec Ideal S128x128 .bf16) x = (V m c main_v25 : S128x128.Idx → EReal) x := by
  obtain ⟨-, -, -, -, e0, e1, -⟩ := idx_facts t
  unfold iblk
  rw [View.read_apply]
  show (V m c main_v25 : S128x128.Idx → EReal) _ = _
  refine congrArg (V m c main_v25 : S128x128.Idx → EReal) (funext fun a => Fin.ext ?_)
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

/-- The first bias row's one block is the whole row. -/
theorem iblk3_apply (c : Dev nD) (t : Fin cfg0.N) (x : S128.Idx) :
    (iblk m c 3 t : Vec Ideal S128 .f32) x = (V m c main_v23 : S128.Idx → EReal) x := by
  obtain ⟨-, -, -, -, -, -, e0, -⟩ := idx_facts t
  unfold iblk
  rw [View.read_apply]
  show (V m c main_v23 : S128.Idx → EReal) _ = _
  refine congrArg (V m c main_v23 : S128.Idx → EReal) (funext fun a => Fin.ext ?_)
  match a with
  | ⟨0, _⟩ => show win0_3.index t (0 : Fin 1) * 128 + 1 * (x 0).val = (x 0).val; rw [e0]; omega

/-- The second weight matrix's one block is the whole matrix. -/
theorem iblk4_apply (c : Dev nD) (t : Fin cfg0.N) (x : S128x128.Idx) :
    (iblk m c 4 t : Vec Ideal S128x128 .bf16) x = (V m c main_v26 : S128x128.Idx → EReal) x := by
  obtain ⟨-, -, -, -, -, -, -, e0, e1, -⟩ := idx_facts t
  unfold iblk
  rw [View.read_apply]
  show (V m c main_v26 : S128x128.Idx → EReal) _ = _
  refine congrArg (V m c main_v26 : S128x128.Idx → EReal) (funext fun a => Fin.ext ?_)
  match a with
  | ⟨0, _⟩ => show win0_4.index t (0 : Fin 2) * 128 + 1 * (x 0).val = (x 0).val; rw [e0]; omega
  | ⟨1, _⟩ => show win0_4.index t (1 : Fin 2) * 128 + 1 * (x 1).val = (x 1).val; rw [e1]; omega

/-- The second bias row's one block is the whole row. -/
theorem iblk5_apply (c : Dev nD) (t : Fin cfg0.N) (x : S128.Idx) :
    (iblk m c 5 t : Vec Ideal S128 .f32) x = (V m c main_v24 : S128.Idx → EReal) x := by
  obtain ⟨-, -, -, -, -, -, -, -, -, e0, -⟩ := idx_facts t
  unfold iblk
  rw [View.read_apply]
  show (V m c main_v24 : S128.Idx → EReal) _ = _
  refine congrArg (V m c main_v24 : S128.Idx → EReal) (funext fun a => Fin.ext ?_)
  match a with
  | ⟨0, _⟩ => show win0_5.index t (0 : Fin 1) * 128 + 1 * (x 0).val = (x 0).val; rw [e0]; omega

end Cert.Gin.Kernel

end
-- ==== Proof.KBlocksC.lean ====
/-
  The output's block. At grid point `t` the call writes back rows `5000·t … 5000·t + 4999` of the packed output: entry
  `x` of the block sits `5000·t` rows down the output array, in the same lane.
-/
import proofs.«131448_j58437325029516_2_alg».proof.Proof.KIdx
import Idealize.ShloMosaic.Lib.Pipeline.Value

set_option maxRecDepth 16384

noncomputable section

open scoped BigOperators

namespace Cert.Gin.Kernel

open Idealize.ShloMosaic Idealize.ShloMosaic.TcCoe Idealize.SL.Sem Idealize.ShloMosaic.ValueIdx Cert.KernelIdeal Cert.KernelIdeal.Gen
open Idealize.ShloMosaic.Pipeline (Dat)

variable (m : (ℓ : Loc nD τ sig) → Buf (Elt Ideal) ℓ)

/-- Entry `x` of the output's block at point `t` sits `5000·t` rows down the output array. -/
theorem emb6_apply (t : Fin cfg0.N) (x : S5000x128.Idx) (k : S50000x128.Idx)
    (hk0 : (k 0).val = 5000 * t.val + (x 0).val) (hk1 : (k 1).val = (x 1).val) :
    ((cfg0.win 6).blk t).view.emb x = k := by
  obtain ⟨-, -, -, -, -, -, -, -, -, -, e0, e1⟩ := idx_facts t
  refine funext fun a => Fin.ext ?_
  match a with
  | ⟨0, _⟩ => show win0_6.index t (0 : Fin 2) * 5000 + 1 * (x 0).val = (k 0).val; rw [e0, hk0]; omega
  | ⟨1, _⟩ => show win0_6.index t (1 : Fin 2) * 128 + 1 * (x 1).val = (k 1).val; rw [e1, hk1]; omega

end Cert.Gin.Kernel

end
-- ==== Proof.KArray.lean ====
/-
  From the kernel's blocks to its whole output array.

  The pallas_call walks a grid of 10 points. At point `t` it reads rows `5000·t … 5000·t + 4999` of the packed `x` and
  `agg` arrays, the whole packed weight matrices and bias rows, and writes back the same rows of the packed output. What
  it writes is the perceptron on those rows (`pay_apply`), so block `t` of the output is block `t` of ONE whole-array
  function — the perceptron of the arrays as the call finds them, `packedOut` — and since the ten blocks tile the 50000
  rows, the output array after the call IS that function.
-/
import proofs.«131448_j58437325029516_2_alg».proof.Proof.Spec
import proofs.«131448_j58437325029516_2_alg».proof.Proof.KPayload
import proofs.«131448_j58437325029516_2_alg».proof.Proof.KIdx
import proofs.«131448_j58437325029516_2_alg».proof.Proof.KBlocksA
import proofs.«131448_j58437325029516_2_alg».proof.Proof.KBlocksB
import proofs.«131448_j58437325029516_2_alg».proof.Proof.KBlocksC
import Idealize.ShloMosaic.Lib.Pipeline.Value

set_option maxRecDepth 16384

noncomputable section

open scoped BigOperators

namespace Cert.Gin.Kernel

open Idealize.ShloMosaic Idealize.ShloMosaic.TcCoe Idealize.SL.Sem Idealize.ShloMosaic.ValueIdx Cert.KernelIdeal Cert.KernelIdeal.Gen
open Idealize.ShloMosaic.Pipeline (Dat)

variable (m : (ℓ : Loc nD τ sig) → Buf (Elt Ideal) ℓ)

/-- The perceptron of the six arrays as the call finds them: what the packed output ends holding. -/
def packedOut (c : Dev nD) : S50000x128.Idx → EReal :=
  mlpArr (R := 50000) (n := 128) (V m c main_v14 : S50000x128.Idx → EReal) (V m c main_v15 : S50000x128.Idx → EReal)
    (V m c main_v25 : S128x128.Idx → EReal) (V m c main_v23 : S128.Idx → EReal)
    (V m c main_v26 : S128x128.Idx → EReal) (V m c main_v24 : S128.Idx → EReal)

/-- The body's one store covers its whole buffer, so the buffer ends holding the stored value. -/
theorem out0_6_eq (x0 x1 : Vec Ideal S5000x128 .f32) (x2 : Vec Ideal S128x128 .bf16) (x3 : Vec Ideal S128 .f32)
    (x4 : Vec Ideal S128x128 .bf16) (x5 : Vec Ideal S128 .f32) :
    out0_6 x0 x1 x2 x3 x4 x5 = k0_pay1 x0 x1 x2 x3 x4 x5 := by
  unfold out0_6
  rw [View.canon_unit_zero hz2]
  simp only [View.ld_unit_zero (S := S5000x128) hz2, View.ld_unit_zero (S := S128x128) hz2, View.ld_unit_zero (S := S128) hz1]

/-- The two row windows' blocks are read off the arrays the call finds. -/
theorem iblk0_eq (c : Dev nD) (t : Fin cfg0.N) :
    iblk m c 0 t = ((cfg0.win 0).blk t).view.read (Elt Ideal) (V m c main_v14 : S50000x128.Idx → EReal) := rfl
theorem iblk1_eq (c : Dev nD) (t : Fin cfg0.N) :
    iblk m c 1 t = ((cfg0.win 1).blk t).view.read (Elt Ideal) (V m c main_v15 : S50000x128.Idx → EReal) := rfl

/-- A staged block `X` whose entry `(p, C)` is entry `(5000·t + p, C)` of a whole-array function `G` is, written back at
    point `t`, block `t` of `G`. -/
theorem flushed_of (t : Fin cfg0.N) (X : Vec Ideal S5000x128 .f32) (G : S50000x128.Idx → EReal)
    (h : ∀ (p : Fin 5000) (C : Fin 128) (r : Fin 50000), r.val = 5000 * t.val + p.val → X (ix2 p C) = G (ix2 r C)) :
    (cfg0.win 6).cut (grid0.coords t) X = ((cfg0.win 6).blk t).view.read (Elt Ideal) G := by
  refine funext fun (j : S5000x128.Idx) => ?_
  obtain ⟨p, C, rfl⟩ : ∃ (p : Fin 5000) (C : Fin 128), j = ix2 p C := ⟨j 0, j 1, eq_ix2 j⟩
  have hN : cfg0.N = 10 := N_0
  have hr : 5000 * t.val + p.val < 50000 := by have := t.isLt; omega
  rw [View.read_apply, emb6_apply t (ix2 p C) (ix2 (⟨5000 * t.val + p.val, hr⟩ : Fin 50000) C) rfl rfl]
  exact h p C ⟨_, hr⟩ rfl

/-- WHAT POINT `t` WRITES BACK is block `t` of `packedOut`: the body stores the perceptron of its loaded blocks, and the
    loaded blocks are rows `5000·t …` of the row arrays and the whole weight and bias arrays. -/
theorem flushed_eq (c : Dev nD) (t : Fin cfg0.N) :
    (dats m 0 c).flushed 6 t = ((cfg0.win 6).blk t).view.read (Elt Ideal) (packedOut m c) := by
  show (cfg0.win 6).cut (grid0.coords t) ((dats m 0 c).after 6 t) = _
  rw [after0_6]
  refine flushed_of t _ (packedOut m c) fun p C r hr => ?_
  refine (congrFun (out0_6_eq (iblk m c 0 t) (iblk m c 1 t) (iblk m c 2 t) (iblk m c 3 t) (iblk m c 4 t) (iblk m c 5 t)) (ix2 p C)).trans ?_
  refine (pay_apply (iblk m c 0 t) (iblk m c 1 t) (iblk m c 2 t) (iblk m c 3 t) (iblk m c 4 t) (iblk m c 5 t) p C).trans ?_
  refine Eq.trans ?_ (mlpArr_apply (R := 50000) (n := 128) (V m c main_v14 : S50000x128.Idx → EReal) (V m c main_v15 : S50000x128.Idx → EReal)
    (V m c main_v25 : S128x128.Idx → EReal) (V m c main_v23 : S128.Idx → EReal)
    (V m c main_v26 : S128x128.Idx → EReal) (V m c main_v24 : S128.Idx → EReal) r C).symm
  exact mlpAt_congr (R := 5000) (R' := 50000) (n := 128) (iblk m c 0 t) (iblk m c 1 t)
    (V m c main_v14 : S50000x128.Idx → EReal) (V m c main_v15 : S50000x128.Idx → EReal)
    (iblk m c 2 t) (V m c main_v25 : S128x128.Idx → EReal) (iblk m c 4 t) (V m c main_v26 : S128x128.Idx → EReal)
    (iblk m c 3 t) (V m c main_v23 : S128.Idx → EReal) (iblk m c 5 t) (V m c main_v24 : S128.Idx → EReal)
    p r C
    (fun k => (congrFun (iblk0_eq m c t) (ix2 p k)).trans (read_rows0 t (V m c main_v14 : S50000x128.Idx → EReal) (ix2 p k) (ix2 r k) hr rfl))
    (fun k => (congrFun (iblk1_eq m c t) (ix2 p k)).trans (read_rows1 t (V m c main_v15 : S50000x128.Idx → EReal) (ix2 p k) (ix2 r k) hr rfl))
    (fun k k' => iblk2_apply m c t (ix2 k k')) (fun k k' => iblk4_apply m c t (ix2 k k'))
    (fun k => iblk3_apply m c t (ix1 k)) (fun k => iblk5_apply m c t (ix1 k))

/-- An index of the output array is in point `t`'s block iff each coordinate is in the block's range on its axis. -/
theorem mem_blk6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v27).slice (win0_6.rect t)).set ↔ _
  rw [View.set_slice_whole, Rect.mem_set_unit]
  exact Iff.rfl

/-- The ten blocks tile the output: row `r` is in the block of point `r / 5000`, which writes back. -/
theorem cover6 (i : S50000x128.Idx) : ∃ t : Fin cfg0.N, (cfg0.win 6).flush t = true ∧ i ∈ ((cfg0.win 6).blk t).view.set := by
  have hN : cfg0.N = 10 := N_0
  have hi0 : (i 0).val < 50000 := (i 0).isLt
  have hi1 : (i 1).val < 128 := (i 1).isLt
  obtain ⟨t, ht⟩ : ∃ t : Fin cfg0.N, t.val = (i 0).val / 5000 := ⟨⟨(i 0).val / 5000, by omega⟩, rfl⟩
  obtain ⟨-, -, -, -, -, -, -, -, -, -, e0, e1⟩ := idx_facts t
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE OUTPUT ARRAY after the call is the perceptron of the arrays as the call finds them. -/
theorem final6 (c : Dev nD) : (dats m 0 c).arrAt 6 cfg0.N = packedOut m c :=
  (dats m 0 c).arrAt_eq_of_cover 6 (packedOut m c) (fun t _ => flushed_eq m c t) cover6

end Cert.Gin.Kernel

end
-- ==== Proof.KRun.lean ====
/-
  The kernel program's run, read: its result array is the perceptron of the program's arguments.

  The pallas_call leaves the packed output at `packedOut` (the perceptron of the packed arrays, `final6`); the one host
  operation after it reads that [50000, 128] array as [100000, 64]. The arrays the call finds are the arguments packed:
  `x` and the neighbours' sum two rows to a row, the weights block-diagonal, the biases repeated (`V_v14` … `V_v24`). By
  the bridge `unpack_mlpArr_packed`, unpacking the packed perceptron of the packed arrays is the perceptron of the
  arguments themselves: `result`.
-/
import proofs.«131448_j58437325029516_2_alg».proof.Proof.Spec
import proofs.«131448_j58437325029516_2_alg».proof.Proof.Bridge
import proofs.«131448_j58437325029516_2_alg».proof.Proof.KHost
import proofs.«131448_j58437325029516_2_alg».proof.Proof.KArray
import Idealize.ShloMosaic.Lib.Pipeline.Value
import Idealize.ShloMosaic.Lib.StableHlo.Run

set_option maxRecDepth 16384

noncomputable section

open scoped BigOperators

namespace Cert.Gin.Kernel

open Idealize.ShloMosaic Idealize.ShloMosaic.TcCoe Idealize.SL.Sem Idealize.ShloMosaic.ValueIdx Cert.KernelIdeal Cert.KernelIdeal.Gen
open Idealize.ShloMosaic.Pipeline (Dat)

variable (m : (ℓ : Loc nD τ sig) → Buf (Elt Ideal) ℓ)

variable (ρ : Dev nD → PrngReg)

/-- What the kernel program computes, as a function of its arguments: `relu((x + agg) · W₁ + b₁) · W₂ + b₂` with `agg` the
    neighbours' sum `aggK x edge_index`. -/
def result (c : Dev nD) : S100000x64.Idx → EReal :=
  mlpArr (R := 100000) (n := 64) (m ((c : Thread nD τ).loc main_arg0))
    (aggK (m ((c : Thread nD τ).loc main_arg0)) (m ((c : Thread nD τ).loc main_arg1)))
    (m ((c : Thread nD τ).loc main_arg2)) (m ((c : Thread nD τ).loc main_arg3))
    (m ((c : Thread nD τ).loc main_arg4)) (m ((c : Thread nD τ).loc main_arg5))

/-- Unpacking the packed output gives the perceptron of the arguments. -/
theorem unpack_packedOut (c : Dev nD) :
    shapeCast S100000x64 (packedOut m c) shapeCasts_S50000x128_S100000x64 = result m c := by
  unfold packedOut result
  rw [V_v14 m c, V_v15 m c, V_v25 m c, V_v23 m c, V_v26 m c, V_v24 m c]
  exact unpack_mlpArr_packed _ _ _ _ zeros _ _ zeros_apply shapeCasts_S100000x64_S50000x128 shapeCasts_S50000x128_S100000x64
    concatenates_S64x64_S64x64_S64x128_d1 concatenates_S64x128_S64x128_S128x128_d0 concatenates_S64_S64_S128_d0

/-- The host operation after the call leaves the program's result at the packed output, unpacked. -/
theorem tail_v28 (c : Dev nD) :
    Pipeline.afterTail₀ cfgs (dats m) 0 (V0 m) [hostOps1] c main_v28
      = shapeCast S100000x64 (packedOut m c) shapeCasts_S50000x128_S100000x64 := by
  unfold Pipeline.afterTail₀
  show StableHlo.after hostOps1 _ (Proc.devRef .tc main_v28) = _
  after_results
  have e : Pipeline.withArrays (cfgs 0).spec c (V0 m c) (fun w => (dats m 0 c).arrAt w (cfgs 0).N) (Proc.devRef .tc main_v27)
      = packedOut m c :=
    (Pipeline.withArrays_arr spec0 launch0.win.arr_inj c _ _ 6).trans (final6 m c)
  rw [e]
  rfl

/-- THE KERNEL PROGRAM'S RUN: every weakly fair execution terminates with the result array at the perceptron of the
    arguments and the arguments unchanged. -/
theorem run : θ_run defs (onTc (τ := τ) (main (F := Ideal))) ⟨m, fun _ => 0, ρ⟩ fun r => ∀ c : Dev nD,
      r.2.mem ((c.tc : Thread nD τ).loc main_v28) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      (((h c).2 main_v28 (Pipeline.mem_restRefs_of main_v28 (by decide) (by decide))).trans (tail_v28 m c)).trans (unpack_packedOut m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Gin.Kernel

end
-- ==== Proof.lean ====
/-
  The certificate: a graph-isomorphism layer's kernel against its reference, over the extended reals.

  Both programs first sum, for every node, the feature rows of its in-neighbours (a gather of `x` at the source indices,
  scatter-added at the destination indices): the same fourteen host operations in both, carried here as one array `agg`
  and never opened. The reference then computes `relu((x + agg) · W₁ + b₁) · W₂ + b₂` row by row with 64 × 64 weights. The
  kernel computes the same perceptron on a packed copy — two consecutive rows of 64 columns side by side as one row of
  128 lanes — against block-diagonal 128 × 128 weights `[[W, 0], [0, W]]` and the biases repeated twice, in blocks of 5000
  packed rows, and unpacks the result. The two agree because a product with the zero blocks is zero for EVERY extended
  real (so no finiteness of the inputs is used) and a sum is unchanged by terms that are zero; changes of float format
  are the identity on the extended reals, and a matrix product into a zero accumulator is the plain sum of products.

  The modules: Spec (the perceptron as a function), Algebra (the packed perceptron is the perceptron, entry by entry),
  Layout (packing, unpacking, the block-diagonal and the repeated bias read at an index), Bridge (the same as whole arrays),
  RefSpec (the reference's result is the perceptron), KPayload (the kernel body's arithmetic is the perceptron on its
  block), KIdx / KBlocksA–C (where each block sits), KArray (the call's output array), KHost (what the call's arrays hold),
  KRun (the kernel program's result). Here: the three frames, the (empty) idealization ledger, and the equality of results.
-/
import proofs.«131448_j58437325029516_2_alg».proof.Defs
import proofs.«131448_j58437325029516_2_alg».proof.Proof.Gen.Kernel
import proofs.«131448_j58437325029516_2_alg».proof.Proof.Gen.Kernel.Frame
import proofs.«131448_j58437325029516_2_alg».proof.Proof.Gen.KernelIdeal
import proofs.«131448_j58437325029516_2_alg».proof.Proof.Gen.KernelIdeal.Frame
import proofs.«131448_j58437325029516_2_alg».proof.Proof.Gen.ReferenceIdeal
import proofs.«131448_j58437325029516_2_alg».proof.Proof.Gen.Pre_finite_inputs
import proofs.«131448_j58437325029516_2_alg».proof.Proof.Gen.ReferenceIdeal.Run
import proofs.«131448_j58437325029516_2_alg».proof.Proof.Gen.ReferenceIdeal.Read
import proofs.«131448_j58437325029516_2_alg».proof.Proof.Spec
import proofs.«131448_j58437325029516_2_alg».proof.Proof.RefSpec
import proofs.«131448_j58437325029516_2_alg».proof.Proof.KRun
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The neighbours' sum is the same function of `x` and `edge_index` in the two programs: the same operations, composed. -/
theorem agg_eq (x0 : (⟨Cert.ReferenceIdeal.S100000x64, .f32⟩ : BufTy).Contents (Elt Ideal))
    (x1 : (⟨Cert.ReferenceIdeal.S2x1250000, .i32⟩ : BufTy).Contents (Elt Ideal)) :
    Cert.ReferenceIdeal.Read.val_main_v13 (F := Ideal) x0 x1 = Cert.Gin.Kernel.aggK x0 x1 := rfl

/-- The reference's result array is the perceptron of its arguments, with the neighbours' sum spelt as the kernel's. -/
theorem ref_result (x0 : (⟨Cert.ReferenceIdeal.S100000x64, .f32⟩ : BufTy).Contents (Elt Ideal))
    (x1 : (⟨Cert.ReferenceIdeal.S2x1250000, .i32⟩ : BufTy).Contents (Elt Ideal))
    (x2 : (⟨Cert.ReferenceIdeal.S64x64, .f32⟩ : BufTy).Contents (Elt Ideal)) (x3 : (⟨Cert.ReferenceIdeal.S64, .f32⟩ : BufTy).Contents (Elt Ideal))
    (x4 : (⟨Cert.ReferenceIdeal.S64x64, .f32⟩ : BufTy).Contents (Elt Ideal)) (x5 : (⟨Cert.ReferenceIdeal.S64, .f32⟩ : BufTy).Contents (Elt Ideal)) :
    Cert.ReferenceIdeal.Read.val_main_v23 (F := Ideal) x0 x1 x2 x3 x4 x5
      = Cert.Gin.mlpArr (R := 100000) (n := 64) x0 (Cert.Gin.Kernel.aggK x0 x1) x2 x3 x4 x5 := by
  funext i
  obtain ⟨r, c, rfl⟩ : ∃ (r : Fin 100000) (c : Fin 64), i = ix2 r c := ⟨i 0, i 1, eq_ix2 i⟩
  rw [Cert.Gin.Ref.ref_apply, agg_eq]
  rfl

/-- The ideal pass rewrote nothing. -/
theorem preserves : Cert.preserves_Kernel_KernelIdeal := trivial

/-- Over the extended reals, from memories agreeing on the arguments, the kernel program and the reference both end at
    the perceptron of the arguments. -/
theorem algebraic : Cert.algebraic_KernelIdeal_ReferenceIdeal := by
  intro m ρ m' ρ' _ hagree
  refine ⟨fun c => Cert.Gin.Kernel.result m c, Cert.Gin.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v23_eq, ref_result, h0, h1, h2, h3, h4, h5]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
